-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S24x2048 : Shape := ⟨2, ![24, 2048]⟩
abbrev S24 : Shape := ⟨1, ![24]⟩
abbrev S24x3 : Shape := ⟨2, ![24, 3]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S24x2048 : S_.BroadcastsInDim S24x2048 (![] : Fin 0 → Fin S24x2048.rank)
  reducesTo_S24x2048_S_d0_1 : S24x2048.ReducesTo [0, 1] S_
  bcast_S_S24 : S_.BroadcastsInDim S24 (![] : Fin 0 → Fin S24.rank)
  reducesTo_S24_S_d0 : S24.ReducesTo [0] S_
  bcast_S_S24x3 : S_.BroadcastsInDim S24x3 (![] : Fin 0 → Fin S24x3.rank)
  reducesTo_S24x3_S_d0_1 : S24x3.ReducesTo [0, 1] S_

variable [Facts]

def fn_part1 {F : FTy → Type} [FloatOps F] (main_v13 : IVec S_ 1) (main_v16 : IVec S24x3 1) : IVec S_ 1 :=
  let main_c_5 : IVec S_ 1 := constantI S_ 1 1#1
  let main_v17 : IVec S_ 1 := (fun x v => Host.reduce IntOp.andi x v reducesTo_S24x3_S_d0_1 h_S_) main_v16 main_c_5
  let main_v18 : IVec S_ 1 := andi main_v13 main_v17
  main_v18

def fn {F : FTy → Type} [FloatOps F] (main_arg0 : FVec F S32768x2048 .f32) (main_arg1 : FVec F S24x2048 .f32) (main_arg2 : FVec F S24 .f32) (main_arg3 : FVec F S24x3 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S24x2048 .f32 := Host.absf main_arg1
  let main_cst_0 : FVec F S_ .f32 := constant S_ .f32 0x7F800000#32
  let main_v5 : FVec F S24x2048 .f32 := broadcastInDim S24x2048 ![] bcast_S_S24x2048 main_cst_0
  let main_v6 : IVec S24x2048 1 := cmpf .olt main_v4 main_v5
  let main_c_1 : IVec S_ 1 := constantI S_ 1 1#1
  let main_v7 : IVec S_ 1 := (fun x v => Host.reduce IntOp.andi x v reducesTo_S24x2048_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S24x3 .f32 := Host.absf main_arg3
  let main_cst_4 : FVec F S_ .f32 := constant S_ .f32 0x7F800000#32
  let main_v15 : FVec F S24x3 .f32 := broadcastInDim S24x3 ![] bcast_S_S24x3 main_cst_4
  let main_v16 : IVec S24x3 1 := cmpf .olt main_v14 main_v15
  fn_part1 (F := F) main_v13 main_v16
-- ==== Kernel.lean ====
abbrev S32768x2048 : Shape := ⟨2, ![32768, 2048]⟩
abbrev S24x2048 : Shape := ⟨2, ![24, 2048]⟩
abbrev S24 : Shape := ⟨1, ![24]⟩
abbrev S24x3 : Shape := ⟨2, ![24, 3]⟩
abbrev S2048x24 : Shape := ⟨2, ![2048, 24]⟩
abbrev S24x1 : Shape := ⟨2, ![24, 1]⟩
abbrev S1x24 : Shape := ⟨2, ![1, 24]⟩
abbrev S3x24 : Shape := ⟨2, ![3, 24]⟩
abbrev S32768x24 : Shape := ⟨2, ![32768, 24]⟩
abbrev S2048x2048 : Shape := ⟨2, ![2048, 2048]⟩
abbrev S2048x512 : Shape := ⟨2, ![2048, 512]⟩
abbrev S512x24 : Shape := ⟨2, ![512, 24]⟩

abbrev nBuf : Space → Nat
  | .hbm => 19
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S24x2048, .f32⟩
  | .hbm, ⟨2, _⟩ => ⟨S24, .f32⟩
  | .hbm, ⟨3, _⟩ => ⟨S24x3, .f32⟩
  | .hbm, ⟨4, _⟩ => ⟨S2048x24, .f32⟩
  | .hbm, ⟨5, _⟩ => ⟨S2048x24, .bf16⟩
  | .hbm, ⟨6, _⟩ => ⟨S24x1, .f32⟩
  | .hbm, ⟨7, _⟩ => ⟨S24, .f32⟩
  | .hbm, ⟨8, _⟩ => ⟨S24x1, .f32⟩
  | .hbm, ⟨9, _⟩ => ⟨S24, .f32⟩
  | .hbm, ⟨10, _⟩ => ⟨S24, .f32⟩
  | .hbm, ⟨11, _⟩ => ⟨S24, .f32⟩
  | .hbm, ⟨12, _⟩ => ⟨S24, .f32⟩
  | .hbm, ⟨13, _⟩ => ⟨S24, .f32⟩
  | .hbm, ⟨14, _⟩ => ⟨S1x24, .f32⟩
  | .hbm, ⟨15, _⟩ => ⟨S1x24, .f32⟩
  | .hbm, ⟨16, _⟩ => ⟨S1x24, .f32⟩
  | .hbm, ⟨17, _⟩ => ⟨S3x24, .f32⟩
  | .hbm, ⟨18, _⟩ => ⟨S32768x24, .f32⟩
  | .local _ .vmem, ⟨0, _⟩ => ⟨S2048x2048, .f32⟩
  | .local _ .vmem, ⟨1, _⟩ => ⟨S2048x2048, .f32⟩
  | .local _ .vmem, ⟨2, _⟩ => ⟨S2048x24, .bf16⟩
  | .local _ .vmem, ⟨3, _⟩ => ⟨S3x24, .f32⟩
  | .local _ .vmem, ⟨4, _⟩ => ⟨S2048x24, .f32⟩
  | .local _ .vmem, ⟨5, _⟩ => ⟨S2048x24, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v1 : BitVec 32 := Scalar.muli c0_i32 c512_i32
  v1
def k0_off1 (c0_i32 : BitVec 32) : Fin 2 → Nat :=
  let c0 : Index := 0#32
  let c512_i32 : BitVec 32 := 512#32
  let v1 : BitVec 32 := Scalar.muli c0_i32 c512_i32
  let v2 : BitVec 32 := v1
  let v3 : Index := Scalar.indexCast v2
  ![0, v3.toNat]
def k0_off2 (c0_i32 : BitVec 32) : Fin 2 → Nat :=
  let c512_i32 : BitVec 32 := 512#32
  let v1 : BitVec 32 := Scalar.muli c0_i32 c512_i32
  let v2 : BitVec 32 := v1
  let v6 : Index := Scalar.indexCast v2
  let c0_0 : Index := 0#32
  ![v6.toNat, 0]
def k0_mult2 : BitVec 32 :=
  let c1_i32 : BitVec 32 := 1#32
  let c512_i32_2 : BitVec 32 := 512#32
  let v11 : BitVec 32 := Scalar.muli c1_i32 c512_i32_2
  v11
def k0_mult3 : BitVec 32 :=
  let c2_i32 : BitVec 32 := 2#32
  let c512_i32_6 : BitVec 32 := 512#32
  let v21 : BitVec 32 := Scalar.muli c2_i32 c512_i32_6
  v21
def k0_mult4 : BitVec 32 :=
  let c3_i32 : BitVec 32 := 3#32
  let c512_i32_10 : BitVec 32 := 512#32
  let v31 : BitVec 32 := Scalar.muli c3_i32 c512_i32_10
  v31
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S24x2048_S2048x24_1_0 : S24x2048.Transposes [1, 0] S2048x24
  bitsLt_bf16_f32 : FTy.bits .bf16 < FTy.bits .f32
  slices_S24x3_S24x1_0_0 : S24x3.Slices ![0, 0] S24x1
  shapeCasts_S24x1_S24 : S24x1.ShapeCasts S24
  slices_S24x3_S24x1_0_1 : S24x3.Slices ![0, 1] S24x1
  bcast_S24_S1x24_1 : S24.BroadcastsInDim S1x24 (![1] : Fin 1 → Fin S1x24.rank)
  concatenates_S1x24_S1x24_S1x24_S3x24_d0 : Shape.Concatenates [S1x24, S1x24, S1x24] S3x24 0
  h_S2048x512 : 0 < S2048x512.numel
  h_S512x24 : 0 < S512x24.numel
  shapeCasts_S512x24_S512x24 : S512x24.ShapeCasts S512x24
  inb_S3x24_S1x24_0_0 : ∀ a, (![0, 0] : Fin 2 → Nat) a + S1x24.size a ≤ S3x24.size a
  h_S1x24 : 0 < S1x24.numel
  shapeCasts_S1x24_S1x24 : S1x24.ShapeCasts S1x24
  inb_S3x24_S1x24_1_0 : ∀ a, (![1, 0] : Fin 2 → Nat) a + S1x24.size a ≤ S3x24.size a
  inb_S3x24_S1x24_2_0 : ∀ a, (![2, 0] : Fin 2 → Nat) a + S1x24.size a ≤ S3x24.size a
  broadcasts_S1x24_S2048x24 : S1x24.Broadcasts S2048x24
  inb_S2048x24_S2048x24_0_0 : ∀ a, (![0, 0] : Fin 2 → Nat) a + S2048x24.size a ≤ S2048x24.size a
  h_S2048x24 : 0 < S2048x24.numel
  dot_S2048x512_S512x24_S2048x24_1_0_0_1_n_n_wf : DotDims.WF S2048x512 S512x24 S2048x24 [1] [0] [0] [1] [] []
  hrank0 : 0 < grid0.rank
  k0_mult1_dvd : 512 ∣ k0_mult1.toNat
  k0_off1_inb : ∀ (r : Fin 4), ∀ a, (k0_off1 (BitVec.ofNat 32 r.val)) a + S2048x512.size a ≤ S2048x2048.size a
  k0_off2_inb : ∀ (r : Fin 4), ∀ a, (k0_off2 (BitVec.ofNat 32 r.val)) a + S512x24.size a ≤ S2048x24.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S32768x2048.size a
  hwx0_0 : ∀ i : grid0.Coords, EltTy.bits .f32 = 32 ∨ (Rect.block (s := S32768x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x24.size a ≤ S2048x24.size a
  hwx0_1 : ∀ i : grid0.Coords, EltTy.bits .bf16 = 32 ∨ (Rect.block (s := S2048x24) S2048x24.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x24.size a ≤ S3x24.size a
  hwx0_2 : ∀ i : grid0.Coords, EltTy.bits .f32 = 32 ∨ (Rect.block (s := S3x24) S3x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x24.size a ≤ S32768x24.size a
  hwx0_3 : ∀ i : grid0.Coords, EltTy.bits .f32 = 32 ∨ (Rect.block (s := S32768x24) S2048x24.size (cc0_transform_3 i) (hinb0_3 i)).WholeWords (EltTy.packing .f32)

variable [Facts₀]

def dot_S2048x512_S512x24_S2048x24_1_0_0_1_n_n : DotDims S2048x512 S512x24 S2048x24 where
  lhsContracting := [1]
  rhsContracting := [0]
  lhsNonContracting := [0]
  rhsNonContracting := [1]
  lhsBatch := []
  rhsBatch := []
  wf := dot_S2048x512_S512x24_S2048x24_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S3x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x24.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S24x2048 : Shape := ⟨2, ![24, 2048]⟩
abbrev S24 : Shape := ⟨1, ![24]⟩
abbrev S24x3 : Shape := ⟨2, ![24, 3]⟩
abbrev S32768x24 : Shape := ⟨2, ![32768, 24]⟩
abbrev S1x24 : Shape := ⟨2, ![1, 24]⟩
abbrev S24x1 : Shape := ⟨2, ![24, 1]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S24x2048, .f32⟩
  | .hbm, ⟨2, _⟩ => ⟨S24, .f32⟩
  | .hbm, ⟨3, _⟩ => ⟨S24x3, .f32⟩
  | .hbm, ⟨4, _⟩ => ⟨S32768x24, .f32⟩
  | .hbm, ⟨5, _⟩ => ⟨S1x24, .f32⟩
  | .hbm, ⟨6, _⟩ => ⟨S32768x24, .f32⟩
  | .hbm, ⟨7, _⟩ => ⟨S32768x24, .f32⟩
  | .hbm, ⟨8, _⟩ => ⟨S24x1, .f32⟩
  | .hbm, ⟨9, _⟩ => ⟨S24, .f32⟩
  | .hbm, ⟨10, _⟩ => ⟨S24x1, .f32⟩
  | .hbm, ⟨11, _⟩ => ⟨S24, .f32⟩
  | .hbm, ⟨12, _⟩ => ⟨S32768x24, .f32⟩
  | .hbm, ⟨13, _⟩ => ⟨S24, .f32⟩
  | .hbm, ⟨14, _⟩ => ⟨S1x24, .f32⟩
  | .hbm, ⟨15, _⟩ => ⟨S32768x24, .f32⟩
  | .hbm, ⟨16, _⟩ => ⟨S32768x24, .f32⟩
  | .hbm, ⟨17, _⟩ => ⟨S32768x24, .f32⟩
  | .hbm, ⟨18, _⟩ => ⟨S24, .f32⟩
  | .hbm, ⟨19, _⟩ => ⟨S24, .f32⟩
  | .hbm, ⟨20, _⟩ => ⟨S24, .f32⟩
  | .hbm, ⟨21, _⟩ => ⟨S1x24, .f32⟩
  | .hbm, ⟨22, _⟩ => ⟨S32768x24, .f32⟩
  | .hbm, ⟨23, _⟩ => ⟨S32768x24, .f32⟩
  | .hbm, ⟨24, _⟩ => ⟨S32768x24, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S1x24_S32768x24_0_1 : S1x24.BroadcastsInDim S32768x24 (![0, 1] : Fin 2 → Fin S32768x24.rank)
  slices_S24x3_S24x1_0_0 : S24x3.Slices ![0, 0] S24x1
  shapeCasts_S24x1_S24 : S24x1.ShapeCasts S24
  slices_S24x3_S24x1_0_1 : S24x3.Slices ![0, 1] S24x1
  dot_S32768x2048_S24x2048_S32768x24_1_1_0_0_n_n_wf : DotDims.WF S32768x2048 S24x2048 S32768x24 [1] [1] [0] [0] [] []

variable [Facts₀]

def dot_S32768x2048_S24x2048_S32768x24_1_1_0_0_n_n : DotDims S32768x2048 S24x2048 S32768x24 where
  lhsContracting := [1]
  rhsContracting := [1]
  lhsNonContracting := [0]
  rhsNonContracting := [0]
  lhsBatch := []
  rhsBatch := []
  wf := dot_S32768x2048_S24x2048_S32768x24_1_1_0_0_n_n_wf

class Facts : Prop extends Facts₀ where

variable [Facts]
-- ==== Proof.AroundBits.lean ====
/-
  The run of the program around its one kernel launch, and the frame it gives.

  The program first prepares, on the host, the transposed weight matrix (rounded to the narrow format) and a
  three-row table whose rows are the bias, cos θ and cos φ · sin θ (fourteen host operations, the last a
  concatenation of three one-row arrays), then launches the kernel over sixteen row tiles of 2048 rows. At each
  tile the kernel reads the tile's 2048 × 2048 block of the input in four column chunks of 512, the matching four row
  chunks of the resident 2048 × 24 weight matrix, the three rows of the table, and stores one whole 2048 × 24 block of
  the result. So after the body the output's staging buffer holds one function of the three input blocks (the single
  store covers the buffer), the inputs' buffers are as they were, and the launch theorem of the pipeline library gives
  the run: every array a window stages ends at what the blocks written back make of it, every other array as the host
  operations left it. The host operations write none of the four arguments, so the arguments end as launched.
-/
import proofs.«120024_j65481071407766_2_alg».proof.Proof.Gen.Kernel.Launch
import proofs.«120024_j65481071407766_2_alg».proof.Proof.Gen.Kernel.Skeleton
import proofs.«120024_j65481071407766_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- What core `c`'s buffers hold when the kernel is launched: the launch memory after the fourteen host operations. -/
abbrev atEntry (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem main_to_launch (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- A buffer that none of the fourteen operations writes holds at the launch what it held at the start. -/
theorem atEntry_of_unwritten (c : Dev nD) (b : Ref sig .tc)
    (hb : ∀ y ∈ ([main_v0, main_v1, main_v2, main_v3, main_v4, main_v5, main_v6, main_v7, main_v8, main_v9, main_v10,
      main_v11, main_v12, main_v13] : List (Ref sig .tc)), b ≠ y) :
    atEntry m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (hb _ (by simp))))

theorem atEntry_arg0 (c : Dev nD) : atEntry m c main_arg0 = m ((c : Thread nD τ).loc main_arg0) :=
  atEntry_of_unwritten m c main_arg0 (by decide)
theorem atEntry_arg1 (c : Dev nD) : atEntry m c main_arg1 = m ((c : Thread nD τ).loc main_arg1) :=
  atEntry_of_unwritten m c main_arg1 (by decide)
theorem atEntry_arg2 (c : Dev nD) : atEntry m c main_arg2 = m ((c : Thread nD τ).loc main_arg2) :=
  atEntry_of_unwritten m c main_arg2 (by decide)
theorem atEntry_arg3 (c : Dev nD) : atEntry m c main_arg3 = m ((c : Thread nD τ).loc main_arg3) :=
  atEntry_of_unwritten m c main_arg3 (by decide)

/-! ## The windows' blocks -/

/-- Window `w`'s block at tile `t`, read off its array as the launch finds it. -/
def tile (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's staging buffer holds the window's block at every tile, fetched there or not, for any proof data
    over the launch contents whose body leaves the block in place: where the pipeline does not fetch (the weight matrix
    and the table are fetched at the first tile only), the block index has not moved. -/
theorem held0_of {c : Dev nD} (dat : Dat τ (Elt F) Unit ℕ (UR sig nD τ) ℕ cfg0 c)
    (hA : dat.A 0 = atEntry m c (Pipeline.arrRef spec0 0)) (hafter : ∀ t, dat.after 0 t = tile m c 0 t)
    (t : Fin cfg0.N) (d) : dat.before 0 t d = tile m c 0 t :=
  (dat.before_in_eq_fetched 0 rfl (fun _ => rfl) (fun _ _ _ => rfl)
    (fun t => by rw [hafter]; unfold Dat.blockOf tile; rw [hA]; try rfl) t d).trans
    (by unfold Dat.fetched Dat.blockOf tile; rw [hA]; try rfl)
theorem held1_of {c : Dev nD} (dat : Dat τ (Elt F) Unit ℕ (UR sig nD τ) ℕ cfg0 c)
    (hA : dat.A 1 = atEntry m c (Pipeline.arrRef spec0 1)) (hafter : ∀ t, dat.after 1 t = tile m c 1 t)
    (t : Fin cfg0.N) (d) : dat.before 1 t d = tile m c 1 t :=
  (dat.before_in_eq_fetched 1 rfl (fun _ => rfl) (fun _ _ _ => rfl)
    (fun t => by rw [hafter]; unfold Dat.blockOf tile; rw [hA]; try rfl) t d).trans
    (by unfold Dat.fetched Dat.blockOf tile; rw [hA]; try rfl)
theorem held2_of {c : Dev nD} (dat : Dat τ (Elt F) Unit ℕ (UR sig nD τ) ℕ cfg0 c)
    (hA : dat.A 2 = atEntry m c (Pipeline.arrRef spec0 2)) (hafter : ∀ t, dat.after 2 t = tile m c 2 t)
    (t : Fin cfg0.N) (d) : dat.before 2 t d = tile m c 2 t :=
  (dat.before_in_eq_fetched 2 rfl (fun _ => rfl) (fun _ _ _ => rfl)
    (fun t => by rw [hafter]; unfold Dat.blockOf tile; rw [hA]; try rfl) t d).trans
    (by unfold Dat.fetched Dat.blockOf tile; rw [hA]; try rfl)

/-! ## The frame from a run -/

/-- From a run that ends with every staged array at what its proof data says and every other unscoped buffer as the
    launch found it: the four arguments end as they started. The input is a staged input array, which the pipeline
    only reads; the other three arguments are staged by no window; and no host operation writes any of the four. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c)⟩) h

/-! ## What the body reads and what it stores -/

/-- Column chunk `k` of the input tile (all 2048 rows, columns 512 k … 512 k + 511). -/
abbrev colChunk0 : Rect S2048x2048 := Rect.unit (s := S2048x2048) (k0_off1 0#32) S2048x512.size (k0_off1_inb 0)
abbrev colChunk1 : Rect S2048x2048 := Rect.unit (s := S2048x2048) (k0_off1 1#32) S2048x512.size (k0_off1_inb 1)
abbrev colChunk2 : Rect S2048x2048 := Rect.unit (s := S2048x2048) (k0_off1 2#32) S2048x512.size (k0_off1_inb 2)
abbrev colChunk3 : Rect S2048x2048 := Rect.unit (s := S2048x2048) (k0_off1 3#32) S2048x512.size (k0_off1_inb 3)
/-- Row chunk `k` of the weight matrix (rows 512 k … 512 k + 511, all 24 columns). -/
abbrev rowChunk0 : Rect S2048x24 := Rect.unit (s := S2048x24) (k0_off2 0#32) S512x24.size (k0_off2_inb 0)
abbrev rowChunk1 : Rect S2048x24 := Rect.unit (s := S2048x24) (k0_off2 1#32) S512x24.size (k0_off2_inb 1)
abbrev rowChunk2 : Rect S2048x24 := Rect.unit (s := S2048x24) (k0_off2 2#32) S512x24.size (k0_off2_inb 2)
abbrev rowChunk3 : Rect S2048x24 := Rect.unit (s := S2048x24) (k0_off2 3#32) S512x24.size (k0_off2_inb 3)
/-- The three rows of the table. -/
abbrev tableRow0 : Rect S3x24 := Rect.unit (s := S3x24) ![0, 0] S1x24.size inb_S3x24_S1x24_0_0
abbrev tableRow1 : Rect S3x24 := Rect.unit (s := S3x24) ![1, 0] S1x24.size inb_S3x24_S1x24_1_0
abbrev tableRow2 : Rect S3x24 := Rect.unit (s := S3x24) ![2, 0] S1x24.size inb_S3x24_S1x24_2_0
/-- The whole output block. -/
abbrev wholeOut : Rect S2048x24 := Rect.unit (s := S2048x24) ![0, 0] S2048x24.size inb_S2048x24_S2048x24_0_0

/-- The value the body stores, as a function of the three input blocks: the first three chunk products accumulated,
    the fourth chunk's two factors, and the three table rows, combined by the body's arithmetic. -/
def stored (x : Vec F S2048x2048 .f32) (w : Vec F S2048x24 .bf16) (s : Vec F S3x24 .f32) : FVec F S2048x24 .f32 :=
  k0_pay1 (k0_pay2 (View.ld x colChunk0) (View.ld w rowChunk0) (View.ld x colChunk1) (View.ld w rowChunk1) (View.ld x colChunk2) (View.ld w rowChunk2))
    (k0_pay3 (View.ld x colChunk3)) (k0_pay4 (View.ld w rowChunk3)) (View.ld s tableRow0) (View.ld s tableRow1) (View.ld s tableRow2)

/-- What the output's staging buffer holds after the body: its one store, of the whole block. -/
def left (x : Vec F S2048x2048 .f32) (w : Vec F S2048x24 .bf16) (s : Vec F S3x24 .f32) : Vec F S2048x24 .f32 :=
  View.canon [⟨wholeOut, stored x w s⟩]

/-- The one store covers the buffer. -/
theorem left_covers (p0 : Vec F S2048x24 .f32) (y : S2048x24.Idx) :
    ∃ pc ∈ ([⟨wholeOut, p0⟩] : List (View.Piece (Elt F) S2048x24 .f32)), y ∈ pc.1.set :=
  View.cover_of_tiled [⟨wholeOut, p0⟩] S2048x24.size (by rfl) y

/-! ## The body -/

set_option maxHeartbeats 1000000 in
/-- The body, on whole staging buffers with the three inputs' at known contents and the output's at anything, runs to
    its end leaving the inputs' as they were and the output's at `left` of them. -/
theorem body_runs (c : Dev nD) (E : Set ℕ) (i : grid0.Coords)
    (arg1 : Memref sig .tc .vmem S2048x2048 .f32) (harg1 : arg1.IsWhole) (arg2 : Memref sig .tc .vmem S2048x24 .bf16) (harg2 : arg2.IsWhole)
    (arg3 : Memref sig .tc .vmem S3x24 .f32) (harg3 : arg3.IsWhole) (arg4 : Memref sig .tc .vmem S2048x24 .f32) (harg4 : arg4.IsWhole)
    (x : Vec F S2048x2048 .f32) (w : Vec F S2048x24 .bf16) (s : Vec F S3x24 .f32) (K : PUnit → sProp 𝕄) :
    iprop(owns (c : Thread nD τ) arg1 fullShare x ∗ owns (c : Thread nD τ) arg2 fullShare w ∗ owns (c : Thread nD τ) arg3 fullShare s
        ∗ (∃ d, owns (c : Thread nD τ) arg4 fullShare d)
        ∗ (iprop(owns (c : Thread nD τ) arg1 fullShare x ∗ owns (c : Thread nD τ) arg2 fullShare w ∗ owns (c : Thread nD τ) arg3 fullShare s
            ∗ owns (c : Thread nD τ) arg4 fullShare (left x w s)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (left_covers _)

/-! ## The pipeline's proof data -/

/-- On core `c`: the arrays as the launch finds them; after the body at tile `t` each input's buffer at its block and
    the output's at `left` of the three blocks; the scoped rest and the generator register untouched; nothing owed. -/
def pdata (_ : Fin 1) (c : Dev nD) : Dat τ (Elt F) Unit ℕ (UR sig nD τ) ℕ cfg0 c where
  A w := atEntry m c (Pipeline.arrRef spec0 w)
  after w t := match w with
    | ⟨0, _⟩ => tile m c 0 t
    | ⟨1, _⟩ => tile m c 1 t
    | ⟨2, _⟩ => tile m c 2 t
    | ⟨3, _⟩ => left (tile m c 0 t) (tile m c 1 t) (tile m c 2 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after_0 (c : Dev nD) (t : Fin cfg0.N) : (pdata m 0 c).after 0 t = tile m c 0 t := by dsimp only [pdata]
theorem after_1 (c : Dev nD) (t : Fin cfg0.N) : (pdata m 0 c).after 1 t = tile m c 1 t := by dsimp only [pdata]
theorem after_2 (c : Dev nD) (t : Fin cfg0.N) : (pdata m 0 c).after 2 t = tile m c 2 t := by dsimp only [pdata]
theorem after_3 (c : Dev nD) (t : Fin cfg0.N) :
    (pdata m 0 c).after 3 t = left (tile m c 0 t) (tile m c 1 t) (tile m c 2 t) := by dsimp only [pdata]

theorem held_0 (c : Dev nD) (t : Fin cfg0.N) (d) : (pdata m 0 c).before 0 t d = tile m c 0 t :=
  held0_of m (pdata m 0 c) (pdata_A m c 0) (after_0 m c) t d
theorem held_1 (c : Dev nD) (t : Fin cfg0.N) (d) : (pdata m 0 c).before 1 t d = tile m c 1 t :=
  held1_of m (pdata m 0 c) (pdata_A m c 1) (after_1 m c) t d
theorem held_2 (c : Dev nD) (t : Fin cfg0.N) (d) : (pdata m 0 c).before 2 t d = tile m c 2 t :=
  held2_of m (pdata m 0 c) (pdata_A m c 2) (after_2 m c) t d

/-! ## The body at a tile -/

/-- What the body is called with at tile `t`, the windows one by one, -/
def givenAt (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d)))

/-- and what it returns. -/
def returnedAt (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t))

/-- The body at any tile: the inputs' buffers hold their blocks, so `body_runs` applies; the invariant and what the
    core owes pass through unread. -/
theorem body_at (c : Dev nD) (t : Fin cfg0.N) :
    givenAt m c t ⊢ wp frame (wpE (defs₀ (F := F)) Variants.none c none) Set.univ (bodyAt0 t) (fun _ => returnedAt m c t) := by
  unfold givenAt returnedAt bodyAt0
  simp only [held_0, held_1, held_2]
  rw [show (pdata m 0 c).Φ t.succ = (pdata m 0 c).Φ t.castSucc from rfl,
    show (pdata m 0 c).owesAt () t.succ = (pdata m 0 c).owesAt () t.castSucc from rfl,
    after_0, after_1, after_2, after_3]
  iintro ⟨HΦ, Ho, ⟨%d0, H0⟩, ⟨%d1, H1⟩, ⟨%d2, H2⟩, ⟨%d3, H3⟩⟩
  iapply (body_runs c Set.univ (grid0.coords t) _ _ _ _ _ _ _ _ (tile m c 0 t) (tile m c 1 t) (tile m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's obligation on the body, at every tile. -/
theorem body_obligation (c : Dev nD) : BodyObligation (pdata (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates, and at the end every array a window stages is what the
    proof data makes of it and every other unscoped buffer is as the launch found it. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := main_to_launch m Variants.none) (hA := pdata_A m) (hΦ := fun _ _ => rfl)

/-- The frame: the program runs to its end and the four arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_run m ρ (pdata m) (pdata_A m) (run_main m ρ)

end Cert.Kernel.Around

end
-- ==== Proof.AroundIdeal.lean ====
/-
  The run of the program around its one kernel launch, and the frame it gives.

  The program first prepares, on the host, the transposed weight matrix (rounded to the narrow format) and a
  three-row table whose rows are the bias, cos θ and cos φ · sin θ (fourteen host operations, the last a
  concatenation of three one-row arrays), then launches the kernel over sixteen row tiles of 2048 rows. At each
  tile the kernel reads the tile's 2048 × 2048 block of the input in four column chunks of 512, the matching four row
  chunks of the resident 2048 × 24 weight matrix, the three rows of the table, and stores one whole 2048 × 24 block of
  the result. So after the body the output's staging buffer holds one function of the three input blocks (the single
  store covers the buffer), the inputs' buffers are as they were, and the launch theorem of the pipeline library gives
  the run: every array a window stages ends at what the blocks written back make of it, every other array as the host
  operations left it. The host operations write none of the four arguments, so the arguments end as launched.
-/
import proofs.«120024_j65481071407766_2_alg».proof.Proof.Gen.KernelIdeal.Launch
import proofs.«120024_j65481071407766_2_alg».proof.Proof.Gen.KernelIdeal.Skeleton
import proofs.«120024_j65481071407766_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- What core `c`'s buffers hold when the kernel is launched: the launch memory after the fourteen host operations. -/
abbrev atEntry (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem main_to_launch (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- A buffer that none of the fourteen operations writes holds at the launch what it held at the start. -/
theorem atEntry_of_unwritten (c : Dev nD) (b : Ref sig .tc)
    (hb : ∀ y ∈ ([main_v0, main_v1, main_v2, main_v3, main_v4, main_v5, main_v6, main_v7, main_v8, main_v9, main_v10,
      main_v11, main_v12, main_v13] : List (Ref sig .tc)), b ≠ y) :
    atEntry m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (hb _ (by simp))))

theorem atEntry_arg0 (c : Dev nD) : atEntry m c main_arg0 = m ((c : Thread nD τ).loc main_arg0) :=
  atEntry_of_unwritten m c main_arg0 (by decide)
theorem atEntry_arg1 (c : Dev nD) : atEntry m c main_arg1 = m ((c : Thread nD τ).loc main_arg1) :=
  atEntry_of_unwritten m c main_arg1 (by decide)
theorem atEntry_arg2 (c : Dev nD) : atEntry m c main_arg2 = m ((c : Thread nD τ).loc main_arg2) :=
  atEntry_of_unwritten m c main_arg2 (by decide)
theorem atEntry_arg3 (c : Dev nD) : atEntry m c main_arg3 = m ((c : Thread nD τ).loc main_arg3) :=
  atEntry_of_unwritten m c main_arg3 (by decide)

/-! ## The windows' blocks -/

/-- Window `w`'s block at tile `t`, read off its array as the launch finds it. -/
def tile (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's staging buffer holds the window's block at every tile, fetched there or not, for any proof data
    over the launch contents whose body leaves the block in place: where the pipeline does not fetch (the weight matrix
    and the table are fetched at the first tile only), the block index has not moved. -/
theorem held0_of {c : Dev nD} (dat : Dat τ (Elt F) Unit ℕ (UR sig nD τ) ℕ cfg0 c)
    (hA : dat.A 0 = atEntry m c (Pipeline.arrRef spec0 0)) (hafter : ∀ t, dat.after 0 t = tile m c 0 t)
    (t : Fin cfg0.N) (d) : dat.before 0 t d = tile m c 0 t :=
  (dat.before_in_eq_fetched 0 rfl (fun _ => rfl) (fun _ _ _ => rfl)
    (fun t => by rw [hafter]; unfold Dat.blockOf tile; rw [hA]; try rfl) t d).trans
    (by unfold Dat.fetched Dat.blockOf tile; rw [hA]; try rfl)
theorem held1_of {c : Dev nD} (dat : Dat τ (Elt F) Unit ℕ (UR sig nD τ) ℕ cfg0 c)
    (hA : dat.A 1 = atEntry m c (Pipeline.arrRef spec0 1)) (hafter : ∀ t, dat.after 1 t = tile m c 1 t)
    (t : Fin cfg0.N) (d) : dat.before 1 t d = tile m c 1 t :=
  (dat.before_in_eq_fetched 1 rfl (fun _ => rfl) (fun _ _ _ => rfl)
    (fun t => by rw [hafter]; unfold Dat.blockOf tile; rw [hA]; try rfl) t d).trans
    (by unfold Dat.fetched Dat.blockOf tile; rw [hA]; try rfl)
theorem held2_of {c : Dev nD} (dat : Dat τ (Elt F) Unit ℕ (UR sig nD τ) ℕ cfg0 c)
    (hA : dat.A 2 = atEntry m c (Pipeline.arrRef spec0 2)) (hafter : ∀ t, dat.after 2 t = tile m c 2 t)
    (t : Fin cfg0.N) (d) : dat.before 2 t d = tile m c 2 t :=
  (dat.before_in_eq_fetched 2 rfl (fun _ => rfl) (fun _ _ _ => rfl)
    (fun t => by rw [hafter]; unfold Dat.blockOf tile; rw [hA]; try rfl) t d).trans
    (by unfold Dat.fetched Dat.blockOf tile; rw [hA]; try rfl)

/-! ## The frame from a run -/

/-- From a run that ends with every staged array at what its proof data says and every other unscoped buffer as the
    launch found it: the four arguments end as they started. The input is a staged input array, which the pipeline
    only reads; the other three arguments are staged by no window; and no host operation writes any of the four. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c)⟩) h

/-! ## What the body reads and what it stores -/

/-- Column chunk `k` of the input tile (all 2048 rows, columns 512 k … 512 k + 511). -/
abbrev colChunk0 : Rect S2048x2048 := Rect.unit (s := S2048x2048) (k0_off1 0#32) S2048x512.size (k0_off1_inb 0)
abbrev colChunk1 : Rect S2048x2048 := Rect.unit (s := S2048x2048) (k0_off1 1#32) S2048x512.size (k0_off1_inb 1)
abbrev colChunk2 : Rect S2048x2048 := Rect.unit (s := S2048x2048) (k0_off1 2#32) S2048x512.size (k0_off1_inb 2)
abbrev colChunk3 : Rect S2048x2048 := Rect.unit (s := S2048x2048) (k0_off1 3#32) S2048x512.size (k0_off1_inb 3)
/-- Row chunk `k` of the weight matrix (rows 512 k … 512 k + 511, all 24 columns). -/
abbrev rowChunk0 : Rect S2048x24 := Rect.unit (s := S2048x24) (k0_off2 0#32) S512x24.size (k0_off2_inb 0)
abbrev rowChunk1 : Rect S2048x24 := Rect.unit (s := S2048x24) (k0_off2 1#32) S512x24.size (k0_off2_inb 1)
abbrev rowChunk2 : Rect S2048x24 := Rect.unit (s := S2048x24) (k0_off2 2#32) S512x24.size (k0_off2_inb 2)
abbrev rowChunk3 : Rect S2048x24 := Rect.unit (s := S2048x24) (k0_off2 3#32) S512x24.size (k0_off2_inb 3)
/-- The three rows of the table. -/
abbrev tableRow0 : Rect S3x24 := Rect.unit (s := S3x24) ![0, 0] S1x24.size inb_S3x24_S1x24_0_0
abbrev tableRow1 : Rect S3x24 := Rect.unit (s := S3x24) ![1, 0] S1x24.size inb_S3x24_S1x24_1_0
abbrev tableRow2 : Rect S3x24 := Rect.unit (s := S3x24) ![2, 0] S1x24.size inb_S3x24_S1x24_2_0
/-- The whole output block. -/
abbrev wholeOut : Rect S2048x24 := Rect.unit (s := S2048x24) ![0, 0] S2048x24.size inb_S2048x24_S2048x24_0_0

/-- The value the body stores, as a function of the three input blocks: the first three chunk products accumulated,
    the fourth chunk's two factors, and the three table rows, combined by the body's arithmetic. -/
def stored (x : Vec F S2048x2048 .f32) (w : Vec F S2048x24 .bf16) (s : Vec F S3x24 .f32) : FVec F S2048x24 .f32 :=
  k0_pay1 (k0_pay2 (View.ld x colChunk0) (View.ld w rowChunk0) (View.ld x colChunk1) (View.ld w rowChunk1) (View.ld x colChunk2) (View.ld w rowChunk2))
    (k0_pay3 (View.ld x colChunk3)) (k0_pay4 (View.ld w rowChunk3)) (View.ld s tableRow0) (View.ld s tableRow1) (View.ld s tableRow2)

/-- What the output's staging buffer holds after the body: its one store, of the whole block. -/
def left (x : Vec F S2048x2048 .f32) (w : Vec F S2048x24 .bf16) (s : Vec F S3x24 .f32) : Vec F S2048x24 .f32 :=
  View.canon [⟨wholeOut, stored x w s⟩]

/-- The one store covers the buffer. -/
theorem left_covers (p0 : Vec F S2048x24 .f32) (y : S2048x24.Idx) :
    ∃ pc ∈ ([⟨wholeOut, p0⟩] : List (View.Piece (Elt F) S2048x24 .f32)), y ∈ pc.1.set :=
  View.cover_of_tiled [⟨wholeOut, p0⟩] S2048x24.size (by rfl) y

/-! ## The body -/

set_option maxHeartbeats 1000000 in
/-- The body, on whole staging buffers with the three inputs' at known contents and the output's at anything, runs to
    its end leaving the inputs' as they were and the output's at `left` of them. -/
theorem body_runs (c : Dev nD) (E : Set ℕ) (i : grid0.Coords)
    (arg1 : Memref sig .tc .vmem S2048x2048 .f32) (harg1 : arg1.IsWhole) (arg2 : Memref sig .tc .vmem S2048x24 .bf16) (harg2 : arg2.IsWhole)
    (arg3 : Memref sig .tc .vmem S3x24 .f32) (harg3 : arg3.IsWhole) (arg4 : Memref sig .tc .vmem S2048x24 .f32) (harg4 : arg4.IsWhole)
    (x : Vec F S2048x2048 .f32) (w : Vec F S2048x24 .bf16) (s : Vec F S3x24 .f32) (K : PUnit → sProp 𝕄) :
    iprop(owns (c : Thread nD τ) arg1 fullShare x ∗ owns (c : Thread nD τ) arg2 fullShare w ∗ owns (c : Thread nD τ) arg3 fullShare s
        ∗ (∃ d, owns (c : Thread nD τ) arg4 fullShare d)
        ∗ (iprop(owns (c : Thread nD τ) arg1 fullShare x ∗ owns (c : Thread nD τ) arg2 fullShare w ∗ owns (c : Thread nD τ) arg3 fullShare s
            ∗ owns (c : Thread nD τ) arg4 fullShare (left x w s)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (left_covers _)

/-! ## The pipeline's proof data -/

/-- On core `c`: the arrays as the launch finds them; after the body at tile `t` each input's buffer at its block and
    the output's at `left` of the three blocks; the scoped rest and the generator register untouched; nothing owed. -/
def pdata (_ : Fin 1) (c : Dev nD) : Dat τ (Elt F) Unit ℕ (UR sig nD τ) ℕ cfg0 c where
  A w := atEntry m c (Pipeline.arrRef spec0 w)
  after w t := match w with
    | ⟨0, _⟩ => tile m c 0 t
    | ⟨1, _⟩ => tile m c 1 t
    | ⟨2, _⟩ => tile m c 2 t
    | ⟨3, _⟩ => left (tile m c 0 t) (tile m c 1 t) (tile m c 2 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after_0 (c : Dev nD) (t : Fin cfg0.N) : (pdata m 0 c).after 0 t = tile m c 0 t := by dsimp only [pdata]
theorem after_1 (c : Dev nD) (t : Fin cfg0.N) : (pdata m 0 c).after 1 t = tile m c 1 t := by dsimp only [pdata]
theorem after_2 (c : Dev nD) (t : Fin cfg0.N) : (pdata m 0 c).after 2 t = tile m c 2 t := by dsimp only [pdata]
theorem after_3 (c : Dev nD) (t : Fin cfg0.N) :
    (pdata m 0 c).after 3 t = left (tile m c 0 t) (tile m c 1 t) (tile m c 2 t) := by dsimp only [pdata]

theorem held_0 (c : Dev nD) (t : Fin cfg0.N) (d) : (pdata m 0 c).before 0 t d = tile m c 0 t :=
  held0_of m (pdata m 0 c) (pdata_A m c 0) (after_0 m c) t d
theorem held_1 (c : Dev nD) (t : Fin cfg0.N) (d) : (pdata m 0 c).before 1 t d = tile m c 1 t :=
  held1_of m (pdata m 0 c) (pdata_A m c 1) (after_1 m c) t d
theorem held_2 (c : Dev nD) (t : Fin cfg0.N) (d) : (pdata m 0 c).before 2 t d = tile m c 2 t :=
  held2_of m (pdata m 0 c) (pdata_A m c 2) (after_2 m c) t d

/-! ## The body at a tile -/

/-- What the body is called with at tile `t`, the windows one by one, -/
def givenAt (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d)))

/-- and what it returns. -/
def returnedAt (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t))

/-- The body at any tile: the inputs' buffers hold their blocks, so `body_runs` applies; the invariant and what the
    core owes pass through unread. -/
theorem body_at (c : Dev nD) (t : Fin cfg0.N) :
    givenAt m c t ⊢ wp frame (wpE (defs₀ (F := F)) Variants.none c none) Set.univ (bodyAt0 t) (fun _ => returnedAt m c t) := by
  unfold givenAt returnedAt bodyAt0
  simp only [held_0, held_1, held_2]
  rw [show (pdata m 0 c).Φ t.succ = (pdata m 0 c).Φ t.castSucc from rfl,
    show (pdata m 0 c).owesAt () t.succ = (pdata m 0 c).owesAt () t.castSucc from rfl,
    after_0, after_1, after_2, after_3]
  iintro ⟨HΦ, Ho, ⟨%d0, H0⟩, ⟨%d1, H1⟩, ⟨%d2, H2⟩, ⟨%d3, H3⟩⟩
  iapply (body_runs c Set.univ (grid0.coords t) _ _ _ _ _ _ _ _ (tile m c 0 t) (tile m c 1 t) (tile m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's obligation on the body, at every tile. -/
theorem body_obligation (c : Dev nD) : BodyObligation (pdata (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates, and at the end every array a window stages is what the
    proof data makes of it and every other unscoped buffer is as the launch found it. -/
theorem run_main : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := atEntry m) (hmain := main_to_launch m Variants.none) (hA := pdata_A m) (hΦ := fun _ _ => rfl)

/-- The frame: the program runs to its end and the four arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_run m ρ (pdata m) (pdata_A m) (run_main m ρ)

end Cert.KernelIdeal.Around

end
-- ==== Proof.Spec.lean ====
/-
  The layer's result, entry by entry, and the one law that joins the two programs.

  For a batch row r and a qubit q the encoding angle is a(r, q) = Σ_k x(r, k) · w(q, k) + b(q), the sum over the
  2048 latent coordinates, and the expectation of Z after the rotations is

      cos a(r, q) · cos θ(q)  −  sin a(r, q) · (cos φ(q) · sin θ(q)),      φ(q) = p(q, 0),  θ(q) = p(q, 1).

  All of it is read on the extended reals, with the conventions of the ideal instance for cos and sin.

  The three coefficients that depend on the qubit alone — the bias b(q), cos θ(q) and cos φ(q) · sin θ(q) — are
  computed from the bias vector and the parameter table by the same few host operations in both programs, each as a
  one-row array [1, 24]. The result is therefore stated as a function of the input, the weights and those three rows:
  how the rows come from b and p never has to be opened.

  The kernel forms the sum over k in four chunks of 512 coordinates, added one after the other to a zero accumulator;
  the reference forms it at once. In a commutative additive monoid the two agree (`sum_four_chunks`): no finiteness is
  needed, because only associativity of addition and the neutral element are used.
-/
import Idealize.ShloMosaic.PureOps.Ideal
import Idealize.ShloMosaic.Lib.ValueIdx

noncomputable section

namespace Cert.Layer

open Idealize.ShloMosaic Idealize.ShloMosaic.ValueIdx

/-- The input, the weights, and a one-row array of per-qubit coefficients, as arrays of extended reals. -/
abbrev Latent : Type := (⟨2, ![32768, 2048]⟩ : Shape).Idx → EReal
abbrev Weights : Type := (⟨2, ![24, 2048]⟩ : Shape).Idx → EReal
abbrev Row : Type := (⟨2, ![1, 24]⟩ : Shape).Idx → EReal

/-- From an angle and two coefficients: cos a · c − sin a · s. -/
def combine (a c s : EReal) : EReal := Ideal.cos a * c - Ideal.sin a * s

/-- The encoding angle of batch row `r` and qubit `q`, the bias given as a row. -/
def angle (x : Latent) (w : Weights) (bias : Row) (r : Fin 32768) (q : Fin 24) : EReal :=
  (∑ k : Fin 2048, x (ix2 r k) * w (ix2 q k)) + bias (ix2 (0 : Fin 1) q)

/-- The expectation at `(r, q)`, from the rows of cos θ and of cos φ · sin θ. -/
def entry (x : Latent) (w : Weights) (bias cosθ cosφsinθ : Row) (r : Fin 32768) (q : Fin 24) : EReal :=
  combine (angle x w bias r q) (cosθ (ix2 (0 : Fin 1) q)) (cosφsinθ (ix2 (0 : Fin 1) q))

/-- The whole result array. -/
def result (x : Latent) (w : Weights) (bias cosθ cosφsinθ : Row) : (⟨2, ![32768, 24]⟩ : Shape).Idx → EReal :=
  fun i => entry x w bias cosθ cosφsinθ (i 0) (i 1)

theorem result_apply (x : Latent) (w : Weights) (bias cosθ cosφsinθ : Row) (r : Fin 32768) (q : Fin 24) :
    result x w bias cosθ cosφsinθ (ix2 r q) = entry x w bias cosθ cosφsinθ r q := rfl

/-- A sum over `4 n` consecutive naturals is its four consecutive chunks of `n`, added in order to zero. -/
theorem sum_range_four {M : Type*} [AddCommMonoid M] (n : ℕ) (f : ℕ → M) :
    ∑ k ∈ Finset.range (n + n + n + n), f k
      = (((0 + ∑ k ∈ Finset.range n, f k) + ∑ k ∈ Finset.range n, f (n + k)) + ∑ k ∈ Finset.range n, f (n + n + k))
          + ∑ k ∈ Finset.range n, f (n + n + n + k) := by
  rw [Finset.sum_range_add, Finset.sum_range_add, Finset.sum_range_add, zero_add]

/-- A sum over 2048 coordinates is its four chunks of 512, added in order to zero. -/
theorem sum_four_chunks {M : Type*} [AddCommMonoid M] (g : Fin 2048 → M) :
    ∑ k : Fin 2048, g k
      = (((0 + ∑ k : Fin 512, g ⟨k.val, by omega⟩) + ∑ k : Fin 512, g ⟨512 + k.val, by omega⟩)
            + ∑ k : Fin 512, g ⟨1024 + k.val, by omega⟩) + ∑ k : Fin 512, g ⟨1536 + k.val, by omega⟩ := by
  let f : ℕ → M := fun n => if h : n < 2048 then g ⟨n, h⟩ else 0
  have hg : ∀ k : Fin 2048, g k = f k.val := fun k => by simp only [f, dif_pos k.isLt]
  have hc : ∀ (o : ℕ) (ho : o + 512 ≤ 2048) (k : Fin 512), g ⟨o + k.val, by omega⟩ = f (o + k.val) := fun o ho k => by
    have : o + k.val < 2048 := by omega
    simp only [f, dif_pos this]
  have h0 : ∀ k : Fin 512, g ⟨k.val, by omega⟩ = f k.val := fun k => by
    have : k.val < 2048 := by omega
    simp only [f, dif_pos this]
  have e : ∑ k : Fin 2048, g k = ∑ k : Fin 2048, f k.val := Finset.sum_congr rfl fun k _ => hg k
  have e0 : ∑ k : Fin 512, g ⟨k.val, by omega⟩ = ∑ k : Fin 512, f k.val := Finset.sum_congr rfl fun k _ => h0 k
  have e1 : ∑ k : Fin 512, g ⟨512 + k.val, by omega⟩ = ∑ k : Fin 512, (fun n => f (512 + n)) k.val :=
    Finset.sum_congr rfl fun k _ => hc 512 (by omega) k
  have e2 : ∑ k : Fin 512, g ⟨1024 + k.val, by omega⟩ = ∑ k : Fin 512, (fun n => f (1024 + n)) k.val :=
    Finset.sum_congr rfl fun k _ => hc 1024 (by omega) k
  have e3 : ∑ k : Fin 512, g ⟨1536 + k.val, by omega⟩ = ∑ k : Fin 512, (fun n => f (1536 + n)) k.val :=
    Finset.sum_congr rfl fun k _ => hc 1536 (by omega) k
  rw [e, e0, e1, e2, e3, Fin.sum_univ_eq_sum_range f 2048, Fin.sum_univ_eq_sum_range f 512,
    Fin.sum_univ_eq_sum_range (fun n => f (512 + n)) 512, Fin.sum_univ_eq_sum_range (fun n => f (1024 + n)) 512,
    Fin.sum_univ_eq_sum_range (fun n => f (1536 + n)) 512]
  exact sum_range_four 512 f

end Cert.Layer

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.BodyValue.lean ====
/-
  The value the kernel's body stores, read at an entry.

  At a tile, with x the tile's 2048 × 2048 block of the input, w the 2048 × 24 transposed weight matrix and s the
  three-row table, the body stores at row p and qubit q

      cos A · s(1, q) − sin A · s(2, q),     A = ((((0 + S₀) + S₁) + S₂) + S₃) + s(0, q),
      S_j = Σ_{k < 512} x(p, 512 j + k) · w(512 j + k, q).

  Each S_j is one matrix product of a column chunk of x with a row chunk of w into a zero accumulator (the change of
  format on the way in is the identity on the extended reals), and the four of them added in order to zero are the
  sum over all 2048 coordinates. Each table row is broadcast down the 2048 rows, so at (p, q) it is read at q.
-/
import proofs.«120024_j65481071407766_2_alg».proof.Proof.AroundIdeal
import proofs.«120024_j65481071407766_2_alg».proof.Proof.Spec
import proofs.«120024_j65481071407766_2_alg».proof.Proof.LibPlainDot
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Cert.KernelIdeal.Around
open Idealize.ShloMosaic Idealize.ShloMosaic.ValueIdx

/-- A column chunk of the input block at `(p, k)` is the block at column `512 j + k`. -/
theorem cols_apply (x : Vec Ideal S2048x2048 .f32) (j : Fin 4) (p : Fin 2048) (k : Fin 512) (n : Fin 2048)
    (hn : n.val = 512 * j.val + k.val) :
    View.ld x (Rect.unit (s := S2048x2048) (k0_off1 (BitVec.ofNat 32 j.val)) S2048x512.size (k0_off1_inb j)) (ix2 p k)
      = x (ix2 p n) := by
  refine congrArg x (funext fun a => Fin.ext ?_)
  show (k0_off1 (BitVec.ofNat 32 j.val)) a + 1 * ((ix2 p k : S2048x512.Idx) a).val = ((ix2 p n : S2048x2048.Idx) a).val
  rw [k0_off1_eq j]
  match a with
  | ⟨0, _⟩ => show 0 + 1 * p.val = p.val; omega
  | ⟨1, _⟩ => show 512 * j.val + 1 * k.val = n.val; omega

/-- A row chunk of the weight matrix at `(k, q)` is the matrix at row `512 j + k`. -/
theorem rows_apply (w : Vec Ideal S2048x24 .bf16) (j : Fin 4) (k : Fin 512) (q : Fin 24) (n : Fin 2048)
    (hn : n.val = 512 * j.val + k.val) :
    View.ld w (Rect.unit (s := S2048x24) (k0_off2 (BitVec.ofNat 32 j.val)) S512x24.size (k0_off2_inb j)) (ix2 k q)
      = w (ix2 n q) := by
  refine congrArg w (funext fun a => Fin.ext ?_)
  show (k0_off2 (BitVec.ofNat 32 j.val)) a + 1 * ((ix2 k q : S512x24.Idx) a).val = ((ix2 n q : S2048x24.Idx) a).val
  rw [k0_off2_eq j]
  match a with
  | ⟨0, _⟩ => show 512 * j.val + 1 * k.val = n.val; omega
  | ⟨1, _⟩ => show 0 + 1 * q.val = q.val; omega

/-- Row `j` of the table, loaded as a one-row array, at `(0, q)` is the table at `(j, q)`. -/
theorem tableRow_apply (s : Vec Ideal S3x24 .f32) (j : Fin 3) (inb : ∀ a, (![j.val, 0] : Fin 2 → Nat) a + S1x24.size a ≤ S3x24.size a)
    (u : Fin 1) (q : Fin 24) :
    View.ld s (Rect.unit (s := S3x24) ![j.val, 0] S1x24.size inb) (ix2 u q) = s (ix2 j q) := by
  refine congrArg s (funext fun a => Fin.ext ?_)
  match a with
  | ⟨0, _⟩ => show j.val + 1 * u.val = j.val; omega
  | ⟨1, _⟩ => show 0 + 1 * q.val = q.val; omega

/-- One chunk's product into the zero accumulator, at `(p, q)`: the sum over the chunk's 512 coordinates. -/
theorem chunk_product (xk : FVec Ideal S2048x512 .f32) (wk : FVec Ideal S512x24 .bf16) (p : Fin 2048) (q : Fin 24) :
    matmul dot_S2048x512_S512x24_S2048x24_1_0_0_1_n_n none (truncf .bf16 xk bitsLt_bf16_f32)
        (shapeCast S512x24 wk shapeCasts_S512x24_S512x24) (constant (F := Ideal) S2048x24 .f32 0x00000000#32) (ix2 p q)
      = ∑ k : Fin 512, xk (ix2 p k) * wk (ix2 k q) := by
  rw [shapeCast_self]
  exact PlainDot.matmul_zero_apply dot_S2048x512_S512x24_S2048x24_1_0_0_1_n_n rfl none
    (truncf .bf16 xk bitsLt_bf16_f32) wk (ix2 p q)

/-- A one-row array broadcast down the 2048 rows, at `(p, q)`, is the row at `q`. -/
theorem row_down (v : FVec Ideal S1x24 .f32) (p : Fin 2048) (q : Fin 24) :
    broadcastTo S2048x24 (shapeCast S1x24 v shapeCasts_S1x24_S1x24) broadcasts_S1x24_S2048x24 (ix2 p q)
      = v (ix2 (0 : Fin 1) q) := by
  rw [shapeCast_self]
  exact broadcastTo_1b_ab_apply v broadcasts_S1x24_S2048x24 p q

/-- The cosine and the sine of an array, at an entry. -/
theorem cos_at {sh : Shape} {φ : FTy} (v : FVec Ideal sh φ) (i : sh.Idx) : (cos v : FVec Ideal sh φ) i = Ideal.cos (v i) := rfl
theorem sin_at {sh : Shape} {φ : FTy} (v : FVec Ideal sh φ) (i : sh.Idx) : (sin v : FVec Ideal sh φ) i = Ideal.sin (v i) := rfl

/-- The stored value at row `p`, qubit `q`. -/
theorem stored_apply (x : Vec Ideal S2048x2048 .f32) (w : Vec Ideal S2048x24 .bf16) (s : Vec Ideal S3x24 .f32)
    (p : Fin 2048) (q : Fin 24) :
    stored (F := Ideal) x w s (ix2 p q)
      = Layer.combine ((∑ k : Fin 2048, x (ix2 p k) * w (ix2 k q)) + s (ix2 (0 : Fin 3) q))
          (s (ix2 (1 : Fin 3) q)) (s (ix2 (2 : Fin 3) q)) := by
  have m0 := chunk_product (View.ld x colChunk0 : FVec Ideal S2048x512 .f32) (View.ld w rowChunk0 : FVec Ideal S512x24 .bf16) p q
  have m1 := chunk_product (View.ld x colChunk1 : FVec Ideal S2048x512 .f32) (View.ld w rowChunk1 : FVec Ideal S512x24 .bf16) p q
  have m2 := chunk_product (View.ld x colChunk2 : FVec Ideal S2048x512 .f32) (View.ld w rowChunk2 : FVec Ideal S512x24 .bf16) p q
  have m3 := chunk_product (View.ld x colChunk3 : FVec Ideal S2048x512 .f32) (View.ld w rowChunk3 : FVec Ideal S512x24 .bf16) p q
  have b0 := row_down (View.ld s tableRow0 : FVec Ideal S1x24 .f32) p q
  have b1 := row_down (View.ld s tableRow1 : FVec Ideal S1x24 .f32) p q
  have b2 := row_down (View.ld s tableRow2 : FVec Ideal S1x24 .f32) p q
  have c0 : ∀ k : Fin 512, View.ld x colChunk0 (ix2 p k) * View.ld w rowChunk0 (ix2 k q)
      = x (ix2 p ⟨k.val, by omega⟩) * w (ix2 ⟨k.val, by omega⟩ q) := fun k =>
    congrArg₂ (· * ·) (cols_apply x 0 p k ⟨k.val, by omega⟩ (by simp)) (rows_apply w 0 k q ⟨k.val, by omega⟩ (by simp))
  have c1 : ∀ k : Fin 512, View.ld x colChunk1 (ix2 p k) * View.ld w rowChunk1 (ix2 k q)
      = x (ix2 p ⟨512 + k.val, by omega⟩) * w (ix2 ⟨512 + k.val, by omega⟩ q) := fun k =>
    congrArg₂ (· * ·) (cols_apply x 1 p k ⟨512 + k.val, by omega⟩ (by simp)) (rows_apply w 1 k q ⟨512 + k.val, by omega⟩ (by simp))
  have c2 : ∀ k : Fin 512, View.ld x colChunk2 (ix2 p k) * View.ld w rowChunk2 (ix2 k q)
      = x (ix2 p ⟨1024 + k.val, by omega⟩) * w (ix2 ⟨1024 + k.val, by omega⟩ q) := fun k =>
    congrArg₂ (· * ·) (cols_apply x 2 p k ⟨1024 + k.val, by omega⟩ (by simp)) (rows_apply w 2 k q ⟨1024 + k.val, by omega⟩ (by simp))
  have c3 : ∀ k : Fin 512, View.ld x colChunk3 (ix2 p k) * View.ld w rowChunk3 (ix2 k q)
      = x (ix2 p ⟨1536 + k.val, by omega⟩) * w (ix2 ⟨1536 + k.val, by omega⟩ q) := fun k =>
    congrArg₂ (· * ·) (cols_apply x 3 p k ⟨1536 + k.val, by omega⟩ (by simp)) (rows_apply w 3 k q ⟨1536 + k.val, by omega⟩ (by simp))
  have t0 : View.ld s tableRow0 (ix2 (0 : Fin 1) q) = s (ix2 (0 : Fin 3) q) := tableRow_apply s 0 inb_S3x24_S1x24_0_0 0 q
  have t1 : View.ld s tableRow1 (ix2 (0 : Fin 1) q) = s (ix2 (1 : Fin 3) q) := tableRow_apply s 1 inb_S3x24_S1x24_1_0 0 q
  have t2 : View.ld s tableRow2 (ix2 (0 : Fin 1) q) = s (ix2 (2 : Fin 3) q) := tableRow_apply s 2 inb_S3x24_S1x24_2_0 0 q
  have hsum := Layer.sum_four_chunks (fun k : Fin 2048 => x (ix2 p k) * w (ix2 k q))
  unfold stored k0_pay1 k0_pay2 k0_pay3 k0_pay4
  simp only [subf_apply, mulf_apply, addf_apply, broadcast_apply, cos_at, sin_at, Ideal.ofBits_def, Ideal.ofBits_zero_f32]
  rw [m0, m1, m2, m3, b0, b1, b2, t0, t1, t2]
  simp only [c0, c1, c2, c3]
  rw [← hsum]
  rfl

/-- The same with every read named: whatever the three blocks are known to hold at the entries the body reads — row
    `p` of the input block, column `q` of the weight operand, the three table entries at `q` —, the stored value is the
    combination of those. -/
theorem stored_eq_of_reads (x : Vec Ideal S2048x2048 .f32) (w : Vec Ideal S2048x24 .bf16) (s : Vec Ideal S3x24 .f32)
    (p : Fin 2048) (q : Fin 24) (X Wq : Fin 2048 → EReal) (r0 r1 r2 : EReal)
    (hx : ∀ k, x (ix2 p k) = X k) (hw : ∀ k, w (ix2 k q) = Wq k)
    (h0 : s (ix2 (0 : Fin 3) q) = r0) (h1 : s (ix2 (1 : Fin 3) q) = r1) (h2 : s (ix2 (2 : Fin 3) q) = r2) :
    stored (F := Ideal) x w s (ix2 p q) = Layer.combine ((∑ k : Fin 2048, X k * Wq k) + r0) r1 r2 := by
  rw [stored_apply, h0, h1, h2]
  simp only [hx, hw]

end Cert.KernelIdeal.Entry

end
-- ==== Proof.LibNaryThree.lean ====
/-
  GENERAL LEMMA: the result of a host operation over a literal family of three operand buffers.

  A concatenation of three arrays is one operation reading a family of three buffers. Its result, read at the
  operation's own result buffer, is the operation's function of the three operands' contents, each named at its own
  buffer (rather than through the family under a binder), so that the contents of each operand can go on being
  rewritten to what the earlier operations wrote there.
-/
import Idealize.ShloMosaic.Lib.StableHlo.Run

noncomputable section

namespace Idealize.ShloMosaic.StableHlo

variable {τ : Topo} {sig : RefSig} {Val : EltTy → Type}

/-- The result of an operation over the three buffers `![x, a, b]`, at its result buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.LibHostRead.lean ====
/-
  Reading a stretch of host operations at one of its result buffers.

  The contents after a list of host operations is a fold; at a result buffer it is that operation's function of
  its operands' contents, each read in turn from the operations before. One pass of rewriting opens the whole
  fold. A three-operand concatenation reads a family of three buffers; its result is stated with each operand
  named at its own buffer, so that the pass goes on into the operands.
-/
import proofs.«120024_j65481071407766_2_alg».proof.Proof.LibNaryThree
import Idealize.ShloMosaic.Lib.StableHlo.Run

noncomputable section

namespace Idealize.ShloMosaic.StableHlo

variable {τ : Topo} {sig : RefSig} {Val : EltTy → Type}

/-- The three-operand result, keyed for the rewriting pass on the operation alone. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for an operation whose function reads its three operands one by one, `fun u => g (u 0) (u 1) (u 2)` (a
    concatenation of three arrays): the result is `g` of the three operands' contents. -/
theorem nary3_result_fn {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) :=
  nary3_result (fun u => g (u 0) (u 1) (u 2)) hxs hy F

/-- Open the fold of a stretch of host operations at a buffer: every operation's result at its own buffer, every other
    buffer passed through (the buffers' inequalities decided). -/
macro "host_read" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.LaunchArrays.lean ====
/-
  What the kernel's two prepared operands hold when it is launched, read at an entry.

  The weight operand is the transpose of the weight matrix with its format narrowed, which on the extended reals changes
  nothing: entry (k, q) is the weight matrix at (q, k). The table is the concatenation, along the rows, of three one-row
  arrays — the bias, cos θ and cos φ · sin θ —, so entry (j, q) is row j at q. The three rows are produced from the bias
  vector and the parameter table by the same host operations the reference program applies, so they are named here by
  the reference's own stages and never opened.
-/
import proofs.«120024_j65481071407766_2_alg».proof.Proof.AroundIdeal
import proofs.«120024_j65481071407766_2_alg».proof.Proof.Gen.ReferenceIdeal.Read
import proofs.«120024_j65481071407766_2_alg».proof.Proof.LibHostRead
import Idealize.ShloMosaic.Lib.Pipeline.Value
import Idealize.ShloMosaic.Lib.ValueIdx

noncomputable section

namespace Cert.KernelIdeal.AtLaunch

open Cert.KernelIdeal Cert.KernelIdeal.Gen Cert.KernelIdeal.Around
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The three coefficient rows, from the bias vector and the parameter table: the reference's stages. -/
abbrev biasRow (b : S24.Idx → Elt Ideal .f32) : S1x24.Idx → Elt Ideal .f32 := Cert.ReferenceIdeal.Read.val_main_v1 (F := Ideal) b
abbrev cosRow (p : S24x3.Idx → Elt Ideal .f32) : S1x24.Idx → Elt Ideal .f32 := Cert.ReferenceIdeal.Read.val_main_v10 (F := Ideal) p
abbrev cosSinRow (p : S24x3.Idx → Elt Ideal .f32) : S1x24.Idx → Elt Ideal .f32 := Cert.ReferenceIdeal.Read.val_main_v17 (F := Ideal) p

/-- The weight operand at the launch: the weight matrix transposed, its format narrowed. -/
theorem weights (c : Dev nD) :
    @Eq (S2048x24.Idx → Elt Ideal .bf16) (atEntry m c main_v1)
      (truncf (F := Ideal) .bf16 (transpose S2048x24 [1, 0] (m ((c : Thread nD τ).loc main_arg1) : S24x2048.Idx → Elt Ideal .f32)
        transposes_S24x2048_S2048x24_1_0) bitsLt_bf16_f32) := by
  dsimp only [atEntry, hostOps0]
  host_read
  try rfl

/-- The table at the launch: the three rows, one above the other. -/
theorem table (c : Dev nD) :
    @Eq (S3x24.Idx → Elt Ideal .f32) (atEntry m c main_v13)
      (concatenate S3x24 0 [⟨S1x24, biasRow (m ((c : Thread nD τ).loc main_arg2))⟩,
          ⟨S1x24, cosRow (m ((c : Thread nD τ).loc main_arg3))⟩, ⟨S1x24, cosSinRow (m ((c : Thread nD τ).loc main_arg3))⟩]
          concatenates_S1x24_S1x24_S1x24_S3x24_d0) := by
  dsimp only [atEntry, hostOps0]
  host_read
  try rfl

/-- The weight operand at `(k, q)` is the weight matrix at `(q, k)`. -/
theorem weights_at (c : Dev nD) (k : Fin 2048) (q : Fin 24) :
    (atEntry m c main_v1 : S2048x24.Idx → Elt Ideal .bf16) (ix2 k q) = m ((c : Thread nD τ).loc main_arg1) (ix2 q k) := by
  rw [weights]
  exact transpose_apply [1, 0] _ transposes_S24x2048_S2048x24_1_0 (ix2 k q) (ix2 q k)
    (fun b => match b with | ⟨0, _⟩ => rfl | ⟨1, _⟩ => rfl)

/-- Three one-row arrays one above the other, at `(j, q)`: row `j` at `q`. -/
theorem stack_at0 (r0 r1 r2 : S1x24.Idx → Elt Ideal .f32) (q : Fin 24) :
    concatenate S3x24 0 [⟨S1x24, r0⟩, ⟨S1x24, r1⟩, ⟨S1x24, r2⟩] concatenates_S1x24_S1x24_S1x24_S3x24_d0 (ix2 (0 : Fin 3) q)
      = r0 (ix2 (0 : Fin 1) q) :=
  concatenate_apply_piece (0 : Fin S3x24.rank) [⟨S1x24, r0⟩, ⟨S1x24, r1⟩, ⟨S1x24, r2⟩] concatenates_S1x24_S1x24_S1x24_S3x24_d0 (ix2 (0 : Fin 3) q) 0 (by simp) S1x24 r0 rfl rfl
    0 (by simp) (ix2 (0 : Fin 1) q) (fun b hb => match b with | ⟨0, _⟩ => absurd rfl hb | ⟨1, _⟩ => rfl) rfl
theorem stack_at1 (r0 r1 r2 : S1x24.Idx → Elt Ideal .f32) (q : Fin 24) :
    concatenate S3x24 0 [⟨S1x24, r0⟩, ⟨S1x24, r1⟩, ⟨S1x24, r2⟩] concatenates_S1x24_S1x24_S1x24_S3x24_d0 (ix2 (1 : Fin 3) q)
      = r1 (ix2 (0 : Fin 1) q) :=
  concatenate_apply_piece (0 : Fin S3x24.rank) [⟨S1x24, r0⟩, ⟨S1x24, r1⟩, ⟨S1x24, r2⟩] concatenates_S1x24_S1x24_S1x24_S3x24_d0 (ix2 (1 : Fin 3) q) 1 (by simp) S1x24 r1 rfl rfl
    1 (by simp) (ix2 (0 : Fin 1) q) (fun b hb => match b with | ⟨0, _⟩ => absurd rfl hb | ⟨1, _⟩ => rfl) rfl
theorem stack_at2 (r0 r1 r2 : S1x24.Idx → Elt Ideal .f32) (q : Fin 24) :
    concatenate S3x24 0 [⟨S1x24, r0⟩, ⟨S1x24, r1⟩, ⟨S1x24, r2⟩] concatenates_S1x24_S1x24_S1x24_S3x24_d0 (ix2 (2 : Fin 3) q)
      = r2 (ix2 (0 : Fin 1) q) :=
  concatenate_apply_piece (0 : Fin S3x24.rank) [⟨S1x24, r0⟩, ⟨S1x24, r1⟩, ⟨S1x24, r2⟩] concatenates_S1x24_S1x24_S1x24_S3x24_d0 (ix2 (2 : Fin 3) q) 2 (by simp) S1x24 r2 rfl rfl
    2 (by simp) (ix2 (0 : Fin 1) q) (fun b hb => match b with | ⟨0, _⟩ => absurd rfl hb | ⟨1, _⟩ => rfl) rfl

/-- The table at row 0, 1, 2 and qubit `q`. -/
theorem table_at0 (c : Dev nD) (q : Fin 24) :
    (atEntry m c main_v13 : S3x24.Idx → Elt Ideal .f32) (ix2 (0 : Fin 3) q) = biasRow (m ((c : Thread nD τ).loc main_arg2)) (ix2 (0 : Fin 1) q) := by
  rw [table]; exact stack_at0 _ _ _ q
theorem table_at1 (c : Dev nD) (q : Fin 24) :
    (atEntry m c main_v13 : S3x24.Idx → Elt Ideal .f32) (ix2 (1 : Fin 3) q) = cosRow (m ((c : Thread nD τ).loc main_arg3)) (ix2 (0 : Fin 1) q) := by
  rw [table]; exact stack_at1 _ _ _ q
theorem table_at2 (c : Dev nD) (q : Fin 24) :
    (atEntry m c main_v13 : S3x24.Idx → Elt Ideal .f32) (ix2 (2 : Fin 3) q) = cosSinRow (m ((c : Thread nD τ).loc main_arg3)) (ix2 (0 : Fin 1) q) := by
  rw [table]; exact stack_at2 _ _ _ q

end Cert.KernelIdeal.AtLaunch

end
-- ==== Proof.KernelResult.lean ====
/-
  The kernel's program computes the layer's result.

  Tile t of the grid stores rows 2048 t … 2048 t + 2047 of the result. Its input block is the same rows of the input, all
  2048 columns; the weight operand and the table are whole at every tile. So the value stored at row p of the tile and
  qubit q is the specification's entry at batch row 2048 t + p: the sum over the latent coordinates of
  input(2048 t + p, k) · weights(q, k), plus the bias row at q, through cos and sin against the two coefficient rows.
  The sixteen tiles' row ranges cover all 32768 rows (row i lies in tile i / 2048), every tile is written back, and
  so the result array ends as the specification's result of the arguments as launched.
-/
import proofs.«120024_j65481071407766_2_alg».proof.Proof.AroundIdeal
import proofs.«120024_j65481071407766_2_alg».proof.Proof.BodyValue
import proofs.«120024_j65481071407766_2_alg».proof.Proof.LaunchArrays
import proofs.«120024_j65481071407766_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Around
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result the program should leave on core `c`: the specification's, of the arguments as launched and the three
    coefficient rows made from the bias vector and the parameter table. -/
def expected (c : Dev nD) : S32768x24.Idx → Elt Ideal .f32 :=
  Layer.result (m ((c : Thread nD τ).loc main_arg0)) (m ((c : Thread nD τ).loc main_arg1))
    (AtLaunch.biasRow (m ((c : Thread nD τ).loc main_arg2))) (AtLaunch.cosRow (m ((c : Thread nD τ).loc main_arg3)))
    (AtLaunch.cosSinRow (m ((c : Thread nD τ).loc main_arg3)))

/-- The printed index maps, decided over the sixteen tiles: the input's and the result's block index is the tile's number
    on the rows and zero on the columns; the weight operand's and the table's is zero on both. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at tile `t`, at `(p, k)`: the input at row `2048 t + p`. -/
theorem inputTile_at (c : Dev nD) (t : Fin cfg0.N) (p : Fin 2048) (k : Fin 2048) (n : Fin 32768) (hn : n.val = 2048 * t.val + p.val) :
    tile m c 0 t (ix2 p k) = m ((c : Thread nD τ).loc main_arg0) (ix2 n k) := by
  show atEntry m c main_arg0 (((cfg0.win 0).blk t).view.emb (ix2 p k)) = _
  rw [atEntry_arg0]
  refine congrArg (m ((c : Thread nD τ).loc main_arg0)) (funext fun a => Fin.ext ?_)
  obtain ⟨e0, e1, -⟩ := blockIndex t
  match a with
  | ⟨0, _⟩ => show win0_0.index t (0 : Fin 2) * 2048 + 1 * p.val = n.val; omega
  | ⟨1, _⟩ => show win0_0.index t (1 : Fin 2) * 2048 + 1 * k.val = k.val; omega

/-- The weight operand's block at any tile is the whole operand: at `(k, q)`, the weight matrix at `(q, k)`. -/
theorem weightTile_at (c : Dev nD) (t : Fin cfg0.N) (k : Fin 2048) (q : Fin 24) :
    tile m c 1 t (ix2 k q) = m ((c : Thread nD τ).loc main_arg1) (ix2 q k) := by
  refine Eq.trans ?_ (AtLaunch.weights_at m c k q)
  show atEntry m c main_v1 (((cfg0.win 1).blk t).view.emb (ix2 k q)) = atEntry m c main_v1 (ix2 k q)
  refine congrArg (atEntry m c main_v1) (funext fun a => Fin.ext ?_)
  obtain ⟨-, -, e0, e1, -⟩ := blockIndex t
  match a with
  | ⟨0, _⟩ => show win0_1.index t (0 : Fin 2) * 2048 + 1 * k.val = k.val; omega
  | ⟨1, _⟩ => show win0_1.index t (1 : Fin 2) * 24 + 1 * q.val = q.val; omega

/-- The table's block at any tile is the whole table. -/
theorem tableTile_at (c : Dev nD) (t : Fin cfg0.N) (j : Fin 3) (q : Fin 24) :
    tile m c 2 t (ix2 j q) = (atEntry m c main_v13 : S3x24.Idx → Elt Ideal .f32) (ix2 j q) := by
  show atEntry m c main_v13 (((cfg0.win 2).blk t).view.emb (ix2 j q)) = atEntry m c main_v13 (ix2 j q)
  refine congrArg (atEntry m c main_v13) (funext fun a => Fin.ext ?_)
  obtain ⟨-, -, -, -, e0, e1, -⟩ := blockIndex t
  match a with
  | ⟨0, _⟩ => show win0_2.index t (0 : Fin 2) * 3 + 1 * j.val = j.val; omega
  | ⟨1, _⟩ => show win0_2.index t (1 : Fin 2) * 24 + 1 * q.val = q.val; omega

/-- What tile `t` stores at `(p, q)` is the expected result at row `2048 t + p`. -/
theorem stored_at_tile (c : Dev nD) (t : Fin cfg0.N) (p : Fin 2048) (q : Fin 24) (n : Fin 32768) (hn : n.val = 2048 * t.val + p.val) :
    stored (F := Ideal) (tile m c 0 t) (tile m c 1 t) (tile m c 2 t) (ix2 p q) = expected m c (ix2 n q) := by
  exact Entry.stored_eq_of_reads (tile m c 0 t) (tile m c 1 t) (tile m c 2 t) p q
    (fun k => m ((c : Thread nD τ).loc main_arg0) (ix2 n k)) (fun k => m ((c : Thread nD τ).loc main_arg1) (ix2 q k))
    (AtLaunch.biasRow (m ((c : Thread nD τ).loc main_arg2)) (ix2 (0 : Fin 1) q))
    (AtLaunch.cosRow (m ((c : Thread nD τ).loc main_arg3)) (ix2 (0 : Fin 1) q))
    (AtLaunch.cosSinRow (m ((c : Thread nD τ).loc main_arg3)) (ix2 (0 : Fin 1) q))
    (fun k => inputTile_at m c t p k n hn) (fun k => weightTile_at m c t k q)
    ((tableTile_at m c t 0 q).trans (AtLaunch.table_at0 m c q))
    ((tableTile_at m c t 1 q).trans (AtLaunch.table_at1 m c q))
    ((tableTile_at m c t 2 q).trans (AtLaunch.table_at2 m c q))

theorem zeroOffsets : (![0, 0] : Fin 2 → Nat) = fun _ => 0 := funext fun a => by fin_cases a <;> rfl

/-- What tile `t` writes back is its block of the expected result. -/
theorem flushed_eq (c : Dev nD) (t : Fin cfg0.N) :
    (pdata m 0 c).flushed 3 t = ((cfg0.win 3).blk t).view.read (Elt Ideal) (expected m c) := by
  show (cfg0.win 3).cut (grid0.coords t) ((pdata m 0 c).after 3 t) = _
  rw [after_3]
  unfold left
  rw [View.canon_unit_zero zeroOffsets]
  funext y
  have hy0 : (y 0).val < 2048 := (y 0).isLt
  have ht : t.val < grid0.N := t.isLt
  rw [N_0] at ht
  obtain ⟨-, -, -, -, -, -, e0, e1⟩ := blockIndex t
  refine ((congrArg (stored (F := Ideal) (tile m c 0 t) (tile m c 1 t) (tile m c 2 t)) (eq_ix2 y)).trans
    (stored_at_tile m c t (y 0) (y 1) ⟨2048 * t.val + (y 0).val, by omega⟩ rfl)).trans ?_
  show expected m c _ = expected m c (((cfg0.win 3).blk t).view.emb y)
  refine congrArg (expected m c) (funext fun a => Fin.ext ?_)
  match a with
  | ⟨0, _⟩ => show 2048 * t.val + (y 0).val = win0_3.index t (0 : Fin 2) * 2048 + 1 * (y 0).val; omega
  | ⟨1, _⟩ => show (y 1).val = win0_3.index t (1 : Fin 2) * 24 + 1 * (y 1).val; omega

/-- An index of the result array is in tile `t`'s block iff each coordinate is in the block's range on its axis. -/
theorem mem_block (t : Fin cfg0.N) (i : S32768x24.Idx) :
    i ∈ ((cfg0.win 3).blk t).view.set ↔ ∀ a : Fin 2, win0_3.index t a * S2048x24.size a ≤ (i a).val
      ∧ (i a).val < win0_3.index t a * S2048x24.size a + S2048x24.size a := by
  show i ∈ ((View.whole main_v14).slice (win0_3.rect t)).set ↔ _
  rw [View.set_slice_whole, Rect.mem_set_unit]
  exact Iff.rfl

/-- Every row of the result lies in the block of the tile numbered by its row divided by 2048. -/
theorem covered (i : S32768x24.Idx) :
    ∃ t : Fin cfg0.N, (cfg0.win 3).flush t = true ∧ i ∈ ((cfg0.win 3).blk t).view.set := by
  have h0 : (i 0).val < 32768 := (i 0).isLt
  have h1 : (i 1).val < 24 := (i 1).isLt
  have hN : grid0.N = 16 := N_0
  let t : Fin cfg0.N := ⟨(i 0).val / 2048, by show (i 0).val / 2048 < grid0.N; omega⟩
  have htv : t.val = (i 0).val / 2048 := rfl
  obtain ⟨-, -, -, -, -, -, e0, e1⟩ := blockIndex t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 24 ≤ (i 1).val ∧ (i 1).val < win0_3.index t (1 : Fin 2) * 24 + 24
    omega

/-- The result array after the run. -/
theorem final (c : Dev nD) : (pdata m 0 c).arrAt 3 cfg0.N = expected m c :=
  (pdata m 0 c).arrAt_eq_of_cover 3 (expected m c) (fun t _ => flushed_eq m c t) covered

/-- The run: every weakly fair execution terminates with the result array at the expected result and the four
    arguments as launched. -/
theorem run : θ_run defs (onTc (τ := τ) (main (F := Ideal))) ⟨m, fun _ => 0, ρ⟩ fun r => ∀ c : Dev nD,
      r.2.mem ((c.tc : Thread nD τ).loc main_v14) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m c),
      ((h c).1 0).trans (((pdata m 0 c).arrAt_in 0 rfl _).trans ((pdata_A m c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c)⟩)
    (run_main m ρ)

end Cert.KernelIdeal.Whole

end
-- ==== Proof.RefResult.lean ====
/-
  The reference computes the layer's result.

  Its last stage subtracts two products; each factor is read at an entry through the stages before it: the product with
  the weights as the sum over the 2048 latent coordinates, the three coefficient rows broadcast down the batch rows and
  so read at the qubit alone, cos and sin as the ideal instance reads them. What comes out at (r, q) is
  cos a · c₁(q) − sin a · c₂(q) with a = Σ_k x(r, k) · w(q, k) + c₀(q), which is the specification's entry.
-/
import proofs.«120024_j65481071407766_2_alg».proof.Proof.Gen.ReferenceIdeal.Read
import proofs.«120024_j65481071407766_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- A broadcast row is read at the qubit: the index functions of the three row broadcasts, at `(r, q)`. -/
theorem rowIdx_bias (r : Fin 32768) (q : Fin 24) : idx_main_v2 (ix2 r q) = ix2 (0 : Fin 1) q :=
  funext fun a => Fin.ext (by match a with | ⟨0, _⟩ => rfl | ⟨1, _⟩ => rfl)
theorem rowIdx_cos (r : Fin 32768) (q : Fin 24) : idx_main_v11 (ix2 r q) = ix2 (0 : Fin 1) q :=
  funext fun a => Fin.ext (by match a with | ⟨0, _⟩ => rfl | ⟨1, _⟩ => rfl)
theorem rowIdx_cosSin (r : Fin 32768) (q : Fin 24) : idx_main_v18 (ix2 r q) = ix2 (0 : Fin 1) q :=
  funext fun a => Fin.ext (by match a with | ⟨0, _⟩ => rfl | ⟨1, _⟩ => rfl)
/-- The product's two factors at coordinate `k`: the input at `(r, k)`, the weights at `(q, k)`. -/
theorem lhsIdx (r : Fin 32768) (q : Fin 24) (k : Fin 2048) : lidx_main_v0 (ix2 r q) k = ix2 r k :=
  funext fun a => Fin.ext (by match a with | ⟨0, _⟩ => rfl | ⟨1, _⟩ => rfl)
theorem rhsIdx (r : Fin 32768) (q : Fin 24) (k : Fin 2048) : ridx_main_v0 (ix2 r q) k = ix2 q k :=
  funext fun a => Fin.ext (by match a with | ⟨0, _⟩ => rfl | ⟨1, _⟩ => rfl)

/-- The reference's last stage is the specification's result of the arguments and the three coefficient rows. -/
theorem last_stage_eq (x : S32768x2048.Idx → Elt Ideal .f32) (w : S24x2048.Idx → Elt Ideal .f32)
    (b : S24.Idx → Elt Ideal .f32) (p : S24x3.Idx → Elt Ideal .f32) :
    val_main_v20 (F := Ideal) x w b p
      = Layer.result x w (val_main_v1 (F := Ideal) b) (val_main_v10 (F := Ideal) p) (val_main_v17 (F := Ideal) p) := by
  funext i
  obtain ⟨r, q, rfl⟩ : ∃ (r : Fin 32768) (q : Fin 24), i = ix2 r q := ⟨i 0, i 1, eq_ix2 i⟩
  rw [Layer.result_apply, val_main_v20_apply, val_main_v12_apply, val_main_v19_apply, val_main_v8_apply, val_main_v13_apply,
    val_main_v3_apply, val_main_v0_apply, val_main_v2_apply, val_main_v11_apply, val_main_v18_apply]
  simp only [rowIdx_bias, rowIdx_cos, rowIdx_cosSin, lhsIdx, rhsIdx]
  rfl

end Cert.ReferenceIdeal.RefValue

end
-- ==== Proof.lean ====
/-
  The five claims of this certificate.

  Both programs compute, for each of the 32768 batch rows and each of the 24 qubits, the expectation

      cos a · cos θ − sin a · (cos φ · sin θ),        a = Σ_k x(r, k) · w(q, k) + b(q),

  on the extended reals. The kernel's program prepares the transposed weights and a table of the three per-qubit
  coefficients on the host, then computes sixteen tiles of 2048 rows, forming the sum over the 2048 latent coordinates
  in four chunks of 512 accumulated from zero; the reference forms the sum at once and the coefficients by the same host
  operations. The sums agree because addition on the extended reals is associative with neutral element zero, so the
  precondition (finite inputs) is never used.

  The frames: each kernel program runs to its end, faults nowhere, and leaves its four arguments as launched (the host
  operations write none of them; the pipeline only reads the input and writes only the result). The reference's frame is
  its run with the result dropped. No operation of the kernel was rewritten by the idealization, so there is nothing to
  preserve.
-/
import proofs.«120024_j65481071407766_2_alg».proof.Defs
import proofs.«120024_j65481071407766_2_alg».proof.Proof.Gen.Kernel
import proofs.«120024_j65481071407766_2_alg».proof.Proof.Gen.KernelIdeal
import proofs.«120024_j65481071407766_2_alg».proof.Proof.Gen.ReferenceIdeal
import proofs.«120024_j65481071407766_2_alg».proof.Proof.Gen.ReferenceIdeal.Run
import proofs.«120024_j65481071407766_2_alg».proof.Proof.Gen.ReferenceIdeal.Read
import proofs.«120024_j65481071407766_2_alg».proof.Proof.Gen.Pre_finite_inputs
import proofs.«120024_j65481071407766_2_alg».proof.Proof.AroundBits
import proofs.«120024_j65481071407766_2_alg».proof.Proof.AroundIdeal
import proofs.«120024_j65481071407766_2_alg».proof.Proof.KernelResult
import proofs.«120024_j65481071407766_2_alg».proof.Proof.RefResult
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Around.frame m ρ

/-- So does the idealized one. -/
theorem frame_ideal : Cert.frame_KernelIdeal := fun m ρ _ => Cert.KernelIdeal.Around.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨fun c => Cert.KernelIdeal.Whole.expected m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.last_stage_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
